-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S640x10000 : Shape := ⟨2, ![640, 10000]⟩
abbrev S640x128 : Shape := ⟨2, ![640, 128]⟩

abbrev nBuf : Space → Nat
  | .hbm => 4
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S640x10000, .f32⟩
  | .local _ .vmem, ⟨1, _⟩ => ⟨S640x10000, .f32⟩
  | .local _ .vmem, ⟨2, _⟩ => ⟨S10000x128, .f32⟩
  | .local _ .vmem, ⟨3, _⟩ => ⟨S128x128, .f32⟩
  | .local _ .vmem, ⟨4, _⟩ => ⟨S640x128, .f32⟩
  | .local _ .vmem, ⟨5, _⟩ => ⟨S640x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S640x10000_S640x10000_0_0 : ∀ a, (![0, 0] : Fin 2 → Nat) a + S640x10000.size a ≤ S640x10000.size a
  h_S640x10000 : 0 < S640x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S640x128_S640x128_0_0 : ∀ a, (![0, 0] : Fin 2 → Nat) a + S640x128.size a ≤ S640x128.size a
  h_S640x128 : 0 < S640x128.numel
  dot_S640x10000_S10000x128_S640x128_1_0_0_1_n_n_wf : DotDims.WF S640x10000 S10000x128 S640x128 [1] [0] [0] [1] [] []
  dot_S640x128_S128x128_S640x128_1_0_0_1_n_n_wf : DotDims.WF S640x128 S128x128 S640x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S640x10000.size a < S10000x10000.size a
  hwx0_0 : ∀ i : grid0.Coords, EltTy.bits .f32 = 32 ∨ (Rect.unit (s := S10000x10000) (fun a => cc0_transform_0 i a * S640x10000.size a) (fun a => (Pipeline.Clip.of (cc0_transform_0 i a) (S640x10000.size a) (S10000x10000.size a)).extent (S640x10000.size a)) fun a => Pipeline.Clip.inb (Pipeline.Clip.ok_of (hstart0_0 i a))).WholeWords (EltTy.packing .f32)
  hwxs0_0 : ∀ i : grid0.Coords, EltTy.bits .f32 = 32 ∨ (Rect.unit (s := S640x10000) (fun _ => 0) (fun a => (Pipeline.Clip.of (cc0_transform_0 i a) (S640x10000.size a) (S10000x10000.size a)).extent (S640x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S640x128.size a < S10000x128.size a
  hwx0_3 : ∀ i : grid0.Coords, EltTy.bits .f32 = 32 ∨ (Rect.unit (s := S10000x128) (fun a => cc0_transform_3 i a * S640x128.size a) (fun a => (Pipeline.Clip.of (cc0_transform_3 i a) (S640x128.size a) (S10000x128.size a)).extent (S640x128.size a)) fun a => Pipeline.Clip.inb (Pipeline.Clip.ok_of (hstart0_3 i a))).WholeWords (EltTy.packing .f32)
  hwxs0_3 : ∀ i : grid0.Coords, EltTy.bits .f32 = 32 ∨ (Rect.unit (s := S640x128) (fun _ => 0) (fun a => (Pipeline.Clip.of (cc0_transform_3 i a) (S640x128.size a) (S10000x128.size a)).extent (S640x128.size a)) fun a => (Nat.zero_add _).trans_le (Pipeline.Clip.extent_le (Pipeline.Clip.ok_of (hstart0_3 i a)))).WholeWords (EltTy.packing .f32)

variable [Facts₀]

def dot_S640x10000_S10000x128_S640x128_1_0_0_1_n_n : DotDims S640x10000 S10000x128 S640x128 where
  lhsContracting := [1]
  rhsContracting := [0]
  lhsNonContracting := [0]
  rhsNonContracting := [1]
  lhsBatch := []
  rhsBatch := []
  wf := dot_S640x10000_S10000x128_S640x128_1_0_0_1_n_n_wf
def dot_S640x128_S128x128_S640x128_1_0_0_1_n_n : DotDims S640x128 S128x128 S640x128 where
  lhsContracting := [1]
  rhsContracting := [0]
  lhsNonContracting := [0]
  rhsNonContracting := [1]
  lhsBatch := []
  rhsBatch := []
  wf := dot_S640x128_S128x128_S640x128_1_0_0_1_n_n_wf

abbrev win0_0 : Pipeline.Window sig grid0 :=
  Pipeline.Window.ofSpecClip (Memref.whole main_arg1) S640x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S640x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsBlock.lean ====
/-
  One grid point of the blocked product (adj · x) · w.

  The grid has 16 points; point t works on rows 640 t ‥ 640 t + 639 of adj (all 10000 columns) and of the result.
  10000 is not a multiple of 640: the last block overhangs the arrays by 240 rows, so at that point only the
  first 400 rows of adj's staging buffer are filled from the array and only the first 400 rows of the result's
  staging buffer are written back; the rest of either buffer holds words nobody names. x and w are staged whole,
  once, and only read.

  This file has the three things that do not depend on how floats are read:
  * the body's triple: on any four whole buffers holding a, x, w and anything, the body ends with the first three
    as they were and the fourth holding the body's one payload, (a · x) · w with both products into a zero
    accumulator;
  * the proof data: after the body adj's buffer holds its block (zero past the array's end), x's and w's buffers
    hold x and w, and the result's buffer holds the payload of these;
  * what the body finds in the three input buffers at every point.
-/
import proofs.«116776_g11235634446663_week1_w3_1444_6_alg».proof.Proof.Gen.Kernel.Frame
import proofs.«116776_g11235634446663_week1_w3_1444_6_alg».proof.Proof.Gen.Kernel.Skeleton
import Idealize.ShloMosaic.Lib.Pipeline.Value

set_option maxRecDepth 16384

noncomputable section

namespace Cert.Kernel.Block

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

/-- Every index of a buffer lies in the rectangle that starts at the origin and has the buffer's own extents. -/
theorem whole_rect_mem {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- The body on four whole buffers: three whole loads, the two products, a whole store. The inputs' buffers are
    left as found; the result's buffer ends at the payload of what the three loads read, whatever it held. -/
theorem body_triple (c : Dev nD) (E : Set ℕ) (i : grid0.Coords)
    (arg1 : Memref sig .tc .vmem S640x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S640x128 .f32) (harg4 : arg4.IsWhole)
    (a : Vec F S640x10000 .f32) (x : Vec F S10000x128 .f32) (w : Vec F S128x128 .f32) (K : PUnit → sProp 𝕄) :
    iprop(owns (c : Thread nD τ) arg1 fullShare a ∗ owns (c : Thread nD τ) arg2 fullShare x ∗ owns (c : Thread nD τ) arg3 fullShare w
        ∗ (∃ d, owns (c : Thread nD τ) arg4 fullShare d)
        ∗ (iprop(owns (c : Thread nD τ) arg1 fullShare a ∗ owns (c : Thread nD τ) arg2 fullShare x ∗ owns (c : Thread nD τ) arg3 fullShare w
              ∗ owns (c : Thread nD τ) arg4 fullShare (k0_pay1 a x w)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the store's rectangle is the whole buffer, so reading back gives the payload; each load's rectangle is its
  -- whole buffer, so it reads the contents
  have hz : (![0, 0] : Fin 2 → Nat) = fun _ => 0 := funext fun a => by fin_cases a <;> rfl
  rw [View.read_writes_eq_canon _ _ _ (fun y => ⟨_, List.mem_singleton_self _, whole_rect_mem hz inb_S640x128_S640x128_0_0 y⟩),
    View.canon_unit_zero hz]
  simp only [View.readAt_eq_ld, View.ld_unit_zero (S := S640x10000) hz, View.ld_unit_zero (S := S10000x128) hz,
    View.ld_unit_zero (S := S128x128) hz]

variable (m : (ℓ : Loc nD τ sig) → Buf (Elt F) ℓ) (ρ : Dev nD → PrngReg)

/-! ## The proof data -/

/-- adj's staging buffer as the proof data name it after the body at point t: the rows of block t that lie inside
    the array, and the zero word on the rows past the array's end (only the last point has such rows; nothing
    proved below reads them). -/
def adjTile (c : Dev nD) (t : Fin cfg0.N) : S640x10000.Idx → Elt F .f32 :=
  win0_0.fill (grid0.coords t) (fun _ => Scalar.ofBits .f32 0#32) (iblk m c 0 t)

/-- The proof data of the one pipeline on core c: the arrays as the region finds them; after the body at point t
    adj's buffer at adjTile, x's and w's at their (whole-array) blocks, the result's at the payload of these three;
    the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => adjTile m c t
    | ⟨1, _⟩ => iblk m c 1 t
    | ⟨2, _⟩ => iblk m c 2 t
    | ⟨3, _⟩ => k0_pay1 (adjTile m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]

theorem after_adj (c : Dev nD) (t : Fin cfg0.N) : (dats m 0 c).after 0 t = adjTile m c t := by dsimp only [dats]
theorem after_x (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_out (c : Dev nD) (t : Fin cfg0.N) :
    (dats m 0 c).after 3 t = k0_pay1 (adjTile m c t) (iblk m c 1 t) (iblk m c 2 t) := by dsimp only [dats]

/-! ## What the body finds -/

/-- adj's block is fetched at every point: the buffer holds block t on the rows inside the array and, past the
    array's end, whatever d the overwrite before the fetch left. -/
theorem before_adj (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- x's and w's buffers hold the whole of x and of w at every point: fetched at the first point, left in place by
    the body at every later one. -/
theorem before_x (c : Dev nD) (t : Fin cfg0.N) (d) : (dats m 0 c).before 1 t d = iblk m c 1 t :=
  before0_1_of m (dats m 0 c) (A_eq m c 1) (after_x m c) t d
theorem before_w (c : Dev nD) (t : Fin cfg0.N) (d) : (dats m 0 c).before 2 t d = iblk m c 2 t :=
  before0_2_of m (dats m 0 c) (A_eq m c 2) (after_w m c) t d

/-- The moved part of adjTile is adj's block. -/
theorem cut_adjTile (c : Dev nD) (t : Fin cfg0.N) : win0_0.cut (grid0.coords t) (adjTile m c t) = iblk m c 0 t :=
  win0_0.cut_fill _ _ _

end Cert.Kernel.Block

end
-- ==== Proof.BitsFrame.lean ====
/-
  The word-level kernel's frame.

  At the word level nothing is claimed of the result's contents, and nothing could be named there: at the last
  grid point the body multiplies rows of adj's buffer that hold unnamed words, and what the matrix unit makes of a
  whole operand is not stated row by row. So the result's window is forgotten: the body is handed its buffer at
  anything and gives it back at anything. The three inputs' buffers are still followed exactly (adj's on the part
  its fetch moves), which is what shows the argument arrays are only read: every execution ends, nothing faults,
  and the three argument arrays end as they began.
-/
import proofs.«116776_g11235634446663_week1_w3_1444_6_alg».proof.Proof.BitsBlock

set_option maxRecDepth 16384

noncomputable section

namespace Cert.Kernel.ReadOnly

open Cert.Kernel.Block
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents this frame does not follow: the result's (window 3). -/
def forgetOut : Fin 4 → Bool := fun w => w.val == 3

/-- What the body is called with at point t: the three inputs' buffers at what they then hold, the result's at
    anything. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it returns: x's and w's buffers as the proof data say, adj's as they say on the part its fetch moves, the
    result's at anything. -/
def pointPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The body at any point: the inputs' buffers hold their blocks, so the triple applies, and it leaves them as
    found. -/
theorem sound_point (c : Dev nD) (t : Fin cfg0.N) :
    pointPre m c t ⊢ wp frame (wpE (defs₀ (F := F)) Variants.none c none) Set.univ (bodyAt0 t) (fun _ => pointPost m c t) := by
  unfold pointPre pointPost bodyAt0
  simp only [before_adj, before_x, before_w]
  rw [show (dats m 0 c).Φ t.succ = (dats m 0 c).Φ t.castSucc from rfl,
    show (dats m 0 c).owesAt () t.succ = (dats m 0 c).owesAt () t.castSucc from rfl,
    after_adj, after_x, after_w, cut_adjTile]
  iintro ⟨HΦ, Ho, ⟨%d0, H0⟩, ⟨%d1, H1⟩, ⟨%d2, H2⟩, ⟨%d3, H3⟩⟩
  iapply (body_triple c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists _; iexact H3

/-- The library's body obligation with the result's window forgotten, at every point. -/
theorem body_obligation (c : Dev nD) :
    BodyObligationLoose (dats (F := F) m 0 c) (defs₀ (F := F)) Variants.none () Set.univ forgetOut := fun t => by
  rw [bigSep_W0, bigSep_W0]
  exact sound_point m c t

set_option backward.isDefEq.respectTransparency.types false in
/-- From any memory with zero counters every weakly fair execution of the program terminates, nothing faulting;
    every input array of the pipeline ends unchanged, and nothing is stated of the result's. -/
theorem run_main : θ_run defs (onTc (τ := τ) (main (F := F))) (s₀ m ρ)
    (Pipeline.RDat.FramePost (cfgs 0) (fun c => (dats m 0 c).toRForget forgetOut) (V m)) :=
  Pipeline.RDat.θ_run_frame cfgs (0 : Fin 1) launch0 defs₀ Variants.none (fun c => (dats m 0 c).toRForget forgetOut) m ρ main
    (hbody := fun c => (body_obligation m c).toRForget)
    (hshare := fun c => ((dats m 0 c).toRForget forgetOut).share_full fun _ => rfl)
    (howed := fun _ _ => rfl) (V := V m) (hmain := hmain m Variants.none) (hA := A_eq m) (hΦ := fun _ _ => rfl)

/-- The frame: an input window's array is never written, so each argument array ends at its entry contents, which
    are the launch contents. (Window 1 stages the first argument, window 0 the second, window 2 the third.) -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgetOut).ArrAt_in 1 rfl _) _) ((h c).1 1)).trans ((A_eq m c 1).trans (V_main_arg0 m c)),
     (Eq.mp (congrFun (((dats m 0 c).toRForget forgetOut).ArrAt_in 0 rfl _) _) ((h c).1 0)).trans ((A_eq m c 0).trans (V_main_arg1 m c)),
     (Eq.mp (congrFun (((dats m 0 c).toRForget forgetOut).ArrAt_in 2 rfl _) _) ((h c).1 2)).trans ((A_eq m c 2).trans (V_main_arg2 m c))⟩)
    (run_main m ρ)

end Cert.Kernel.ReadOnly

end
-- ==== Proof.IdealBlock.lean ====
/-
  One grid point of the blocked product (adj · x) · w.

  The grid has 16 points; point t works on rows 640 t ‥ 640 t + 639 of adj (all 10000 columns) and of the result.
  10000 is not a multiple of 640: the last block overhangs the arrays by 240 rows, so at that point only the
  first 400 rows of adj's staging buffer are filled from the array and only the first 400 rows of the result's
  staging buffer are written back; the rest of either buffer holds words nobody names. x and w are staged whole,
  once, and only read.

  This file has the three things that do not depend on how floats are read:
  * the body's triple: on any four whole buffers holding a, x, w and anything, the body ends with the first three
    as they were and the fourth holding the body's one payload, (a · x) · w with both products into a zero
    accumulator;
  * the proof data: after the body adj's buffer holds its block (zero past the array's end), x's and w's buffers
    hold x and w, and the result's buffer holds the payload of these;
  * what the body finds in the three input buffers at every point.
-/
import proofs.«116776_g11235634446663_week1_w3_1444_6_alg».proof.Proof.Gen.KernelIdeal.Frame
import proofs.«116776_g11235634446663_week1_w3_1444_6_alg».proof.Proof.Gen.KernelIdeal.Skeleton
import Idealize.ShloMosaic.Lib.Pipeline.Value

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

/-- Every index of a buffer lies in the rectangle that starts at the origin and has the buffer's own extents. -/
theorem whole_rect_mem {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- The body on four whole buffers: three whole loads, the two products, a whole store. The inputs' buffers are
    left as found; the result's buffer ends at the payload of what the three loads read, whatever it held. -/
theorem body_triple (c : Dev nD) (E : Set ℕ) (i : grid0.Coords)
    (arg1 : Memref sig .tc .vmem S640x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S640x128 .f32) (harg4 : arg4.IsWhole)
    (a : Vec F S640x10000 .f32) (x : Vec F S10000x128 .f32) (w : Vec F S128x128 .f32) (K : PUnit → sProp 𝕄) :
    iprop(owns (c : Thread nD τ) arg1 fullShare a ∗ owns (c : Thread nD τ) arg2 fullShare x ∗ owns (c : Thread nD τ) arg3 fullShare w
        ∗ (∃ d, owns (c : Thread nD τ) arg4 fullShare d)
        ∗ (iprop(owns (c : Thread nD τ) arg1 fullShare a ∗ owns (c : Thread nD τ) arg2 fullShare x ∗ owns (c : Thread nD τ) arg3 fullShare w
              ∗ owns (c : Thread nD τ) arg4 fullShare (k0_pay1 a x w)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the store's rectangle is the whole buffer, so reading back gives the payload; each load's rectangle is its
  -- whole buffer, so it reads the contents
  have hz : (![0, 0] : Fin 2 → Nat) = fun _ => 0 := funext fun a => by fin_cases a <;> rfl
  rw [View.read_writes_eq_canon _ _ _ (fun y => ⟨_, List.mem_singleton_self _, whole_rect_mem hz inb_S640x128_S640x128_0_0 y⟩),
    View.canon_unit_zero hz]
  simp only [View.readAt_eq_ld, View.ld_unit_zero (S := S640x10000) hz, View.ld_unit_zero (S := S10000x128) hz,
    View.ld_unit_zero (S := S128x128) hz]

variable (m : (ℓ : Loc nD τ sig) → Buf (Elt F) ℓ) (ρ : Dev nD → PrngReg)

/-! ## The proof data -/

/-- adj's staging buffer as the proof data name it after the body at point t: the rows of block t that lie inside
    the array, and the zero word on the rows past the array's end (only the last point has such rows; nothing
    proved below reads them). -/
def adjTile (c : Dev nD) (t : Fin cfg0.N) : S640x10000.Idx → Elt F .f32 :=
  win0_0.fill (grid0.coords t) (fun _ => Scalar.ofBits .f32 0#32) (iblk m c 0 t)

/-- The proof data of the one pipeline on core c: the arrays as the region finds them; after the body at point t
    adj's buffer at adjTile, x's and w's at their (whole-array) blocks, the result's at the payload of these three;
    the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => adjTile m c t
    | ⟨1, _⟩ => iblk m c 1 t
    | ⟨2, _⟩ => iblk m c 2 t
    | ⟨3, _⟩ => k0_pay1 (adjTile m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]

theorem after_adj (c : Dev nD) (t : Fin cfg0.N) : (dats m 0 c).after 0 t = adjTile m c t := by dsimp only [dats]
theorem after_x (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_out (c : Dev nD) (t : Fin cfg0.N) :
    (dats m 0 c).after 3 t = k0_pay1 (adjTile m c t) (iblk m c 1 t) (iblk m c 2 t) := by dsimp only [dats]

/-! ## What the body finds -/

/-- adj's block is fetched at every point: the buffer holds block t on the rows inside the array and, past the
    array's end, whatever d the overwrite before the fetch left. -/
theorem before_adj (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- x's and w's buffers hold the whole of x and of w at every point: fetched at the first point, left in place by
    the body at every later one. -/
theorem before_x (c : Dev nD) (t : Fin cfg0.N) (d) : (dats m 0 c).before 1 t d = iblk m c 1 t :=
  before0_1_of m (dats m 0 c) (A_eq m c 1) (after_x m c) t d
theorem before_w (c : Dev nD) (t : Fin cfg0.N) (d) : (dats m 0 c).before 2 t d = iblk m c 2 t :=
  before0_2_of m (dats m 0 c) (A_eq m c 2) (after_w m c) t d

/-- The moved part of adjTile is adj's block. -/
theorem cut_adjTile (c : Dev nD) (t : Fin cfg0.N) : win0_0.cut (grid0.coords t) (adjTile m c t) = iblk m c 0 t :=
  win0_0.cut_fill _ _ _

end Cert.KernelIdeal.Block

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.PayloadEntry.lean ====
/-
  The body's payload at an entry, over the extended reals.

  The payload is (a · x) · w, each product a matrix unit's product into the zero accumulator. At the ideal
  instance nothing rounds, so entry (p, g) is the double sum
      sum over k < 128 of (sum over j < 10000 of a (p, j) * x (j, k)) * w (k, g).
  In particular row p of the payload depends on row p of a alone — which is what lets a block that overhangs the
  array be handled: rows of a past the array's end hold unnamed words, and they reach only rows of the payload that
  are never written back.
-/
import proofs.«116776_g11235634446663_week1_w3_1444_6_alg».proof.Proof.Gen.KernelIdeal.Skeleton
import proofs.«116776_g11235634446663_week1_w3_1444_6_alg».proof.Proof.LibPlainDot
import Idealize.ShloMosaic.Lib.ValueIdx

noncomputable section

namespace Cert.KernelIdeal.Entry

open Cert.KernelIdeal Cert.KernelIdeal.Gen Idealize.ShloMosaic Idealize.ShloMosaic.ValueIdx

/-- Entry (p, g) of the payload: the inner product of row p of a · x with column g of w, row p of a · x itself the
    inner products of row p of a with the columns of x. -/
theorem pay_entry (a : Vec Ideal S640x10000 .f32) (x : Vec Ideal S10000x128 .f32) (w : Vec Ideal S128x128 .f32)
    (p : Fin 640) (g : Fin 128) :
    k0_pay1 (F := Ideal) a x w (ix2 p g)
      = ∑ k : Fin 128, (∑ j : Fin 10000, a (ix2 p j) * x (ix2 j k)) * w (ix2 k g) := by
  unfold k0_pay1
  refine (Cert.PlainDot.matmul_zero_apply dot_S640x128_S128x128_S640x128_1_0_0_1_n_n rfl _ w p g).trans ?_
  refine Finset.sum_congr rfl fun k _ => ?_
  exact congrArg (· * w (ix2 k g))
    (Cert.PlainDot.matmul_zero_apply dot_S640x10000_S10000x128_S640x128_1_0_0_1_n_n rfl a x p k)

/-- Two left operands with the same row p give payloads with the same row p. -/
theorem pay_row_congr (a a' : Vec Ideal S640x10000 .f32) (x : Vec Ideal S10000x128 .f32) (w : Vec Ideal S128x128 .f32)
    (p : Fin 640) (g : Fin 128) (h : ∀ j : Fin 10000, a (ix2 p j) = a' (ix2 p j)) :
    k0_pay1 (F := Ideal) a x w (ix2 p g) = k0_pay1 (F := Ideal) a' x w (ix2 p g) := by
  rw [pay_entry, pay_entry]
  exact Finset.sum_congr rfl fun k _ => congrArg (· * w (ix2 k g)) (Finset.sum_congr rfl fun j _ => by rw [h j])

end Cert.KernelIdeal.Entry

end
-- ==== Proof.IdealPoint.lean ====
/-
  The idealized kernel's frame run, with the result named.

  At the ideal instance the result's staging buffer is named exactly on the rows that are written back. At the
  last grid point adj's buffer holds unnamed words on its rows past the array's end; they feed only the rows of
  the payload past the array's end, because row p of the payload depends on row p of the left operand alone. The
  result's window is cut on the row axis exactly as adj's is, so the rows written back are the named ones.
  With that the body meets its obligation at every point, and the library's frame run gives: every execution
  ends, nothing faults, each array ends at what the proof data compute — the inputs unchanged, the result its
  entry contents overwritten block by block.
-/
import proofs.«116776_g11235634446663_week1_w3_1444_6_alg».proof.Proof.IdealBlock
import proofs.«116776_g11235634446663_week1_w3_1444_6_alg».proof.Proof.PayloadEntry

set_option maxRecDepth 16384

noncomputable section

namespace Cert.KernelIdeal.Point

open Cert.KernelIdeal Cert.KernelIdeal.Gen Cert.KernelIdeal.Block
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Rows of the payload that are written back do not see the unnamed rows -/

/-- adj's window and the result's window are cut to the same number of rows at every point, -/
theorem rows_alike : ∀ t : Fin cfg0.N, win0_0.xsize (grid0.coords t) 0 = win0_3.xsize (grid0.coords t) 0 :=
  (by decide +kernel : ∀ t : Fin grid0.N, win0_0.xsize (grid0.coords t) 0 = win0_3.xsize (grid0.coords t) 0)
/-- and adj's window is never cut on the column axis. -/
theorem cols_whole : ∀ t : Fin cfg0.N, win0_0.xsize (grid0.coords t) 1 = 10000 :=
  (by decide +kernel : ∀ t : Fin grid0.N, win0_0.xsize (grid0.coords t) 1 = 10000)

/-- On the part a transfer moves, a filled block does not depend on what it was filled over. -/
theorem fill_moved_congr {G : Pipeline.Grid} (w : Window sig G) {α : Type} (i : G.Coords) (d d' : w.block.Idx → α)
    (g : (w.xblock i).Idx → α) {j : w.block.Idx} (h : w.moved i j = true) : w.fill i d g j = w.fill i d' g j := by
  unfold Pipeline.Window.fill; rw [dif_pos h, dif_pos h]

/-- The rows of the payload that the write-back moves are the same whatever adj's buffer held past the array's
    end: they are computed from rows of adj's buffer that the fetch filled. -/
theorem out_rows_local (c : Dev nD) (t : Fin cfg0.N) (d : S640x10000.Idx → Elt Ideal .f32) :
    win0_3.cut (grid0.coords t) (k0_pay1 (win0_0.fill (grid0.coords t) d (iblk m c 0 t)) (iblk m c 1 t) (iblk m c 2 t))
      = win0_3.cut (grid0.coords t) (k0_pay1 (adjTile m c t) (iblk m c 1 t) (iblk m c 2 t)) := by
  funext y
  show k0_pay1 _ _ _ (win0_3.xinj (grid0.coords t) y) = k0_pay1 _ _ _ (win0_3.xinj (grid0.coords t) y)
  obtain ⟨p, g, hpg⟩ : ∃ (p : Fin 640) (g : Fin 128), win0_3.xinj (grid0.coords t) y = ix2 p g := ⟨_, _, eq_ix2 _⟩
  have hp : p.val = (y 0).val := (congrArg Fin.val (congrFun hpg 0)).symm
  rw [hpg]
  refine Entry.pay_row_congr _ _ _ _ p g fun j => ?_
  unfold adjTile
  refine fill_moved_congr win0_0 _ _ _ _ ((win0_0.moved_iff _ _).mpr fun a => ?_)
  match a with
  | ⟨0, _⟩ =>
    show p.val < win0_0.xsize (grid0.coords t) 0
    rw [rows_alike t, hp]; exact (y 0).isLt
  | ⟨1, _⟩ =>
    show j.val < win0_0.xsize (grid0.coords t) 1
    rw [cols_whole t]; exact j.isLt

/-! ## The body's obligation at a point -/

/-- What the body is called with at point t: the invariant, what the core owes, and each window's current buffer
    at what it then holds. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns: x's and w's buffers exactly as the proof data say; adj's and the result's, whose blocks may
    overhang, as the proof data say on the part their transfers move. -/
def pointPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        (win0_3.fill (grid0.coords t) d (win0_3.cut (grid0.coords t) ((dats m 0 c).after 3 t)))))

/-- The body at any point. The three inputs' buffers hold their blocks (adj's filled out by some d0), so the
    triple applies; afterwards adj's buffer is as found, which on the moved part is the proof data's; the result's
    buffer holds the payload of what was found, which on the moved part is the proof data's payload. -/
theorem sound_point (c : Dev nD) (t : Fin cfg0.N) :
    pointPre m c t ⊢ wp frame (wpE (defs₀ (F := Ideal)) Variants.none c none) Set.univ (bodyAt0 t) (fun _ => pointPost m c t) := by
  unfold pointPre pointPost bodyAt0
  simp only [before_adj, before_x, before_w]
  rw [show (dats m 0 c).Φ t.succ = (dats m 0 c).Φ t.castSucc from rfl,
    show (dats m 0 c).owesAt () t.succ = (dats m 0 c).owesAt () t.castSucc from rfl,
    after_adj, after_x, after_w, after_out, cut_adjTile]
  iintro ⟨HΦ, Ho, ⟨%d0, H0⟩, ⟨%d1, H1⟩, ⟨%d2, H2⟩, ⟨%d3, H3⟩⟩
  iapply (body_triple c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists (k0_pay1 (win0_0.fill (grid0.coords t) d0 (iblk m c 0 t)) (iblk m c 1 t) (iblk m c 2 t))
  rw [← out_rows_local m c t d0, win0_3.fill_cut]
  iexact H3

/-- The library's body obligation (in the form that states an overhanging window on its moved part), at every point. -/
theorem body_obligation (c : Dev nD) :
    BodyObligationLoose (dats (F := Ideal) m 0 c) (defs₀ (F := Ideal)) Variants.none () Set.univ := fun t => by
  rw [bigSep_W0, bigSep_W0]
  exact sound_point m c t

/-! ## The run and the frame -/

set_option backward.isDefEq.respectTransparency.types false in
/-- From any memory with zero counters every weakly fair execution of the program terminates, nothing faulting,
    with every array of the pipeline at what the library computes from the proof data. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := fun _ _ => rfl) (hΦ := fun _ _ => rfl)

/-- The frame: the program runs to the end and its three argument arrays end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Point

end
-- ==== Proof.LibTripleProduct.lean ====
/-
  Associativity of a triple matrix product, over the extended reals.

  Row p of (A·X)·W and row p of A·(X·W) have the same entry at column g:
      sum over k of (sum over j of a j * x j k) * w k  =  sum over j of a j * (sum over k of x j k * w k),
  where a is row p of A and w is column g of W. On the extended reals this needs every entry to be a real
  number: multiplication does not distribute over addition at the infinities. For real entries both sides are
  the coercion of one real double sum, which is rearranged in the reals.
-/
import Idealize.ShloMosaic.PureOps.Ideal

noncomputable section

namespace Cert.TripleProduct

/-- The coercion of the reals into the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rearrangement in the reals: distribute both ways, exchange the two sums, reassociate each product. -/
theorem assoc_real {J K : Type} [Fintype J] [Fintype K] (a : J → ℝ) (x : J → K → ℝ) (w : K → ℝ) :
    ∑ k, (∑ j, a j * x j k) * w k = ∑ j, a j * ∑ k, x j k * w k := by
  simp only [Finset.sum_mul, Finset.mul_sum]
  rw [Finset.sum_comm]
  exact Finset.sum_congr rfl fun j _ => Finset.sum_congr rfl fun k _ => mul_assoc _ _ _

/-- The same on the extended reals, for entries that are all real numbers. -/
theorem assoc_of_real {J K : Type} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha' using ha
  choose x' hx' using hx
  choose w' hw' using hw
  obtain rfl : a = fun j => (a' j : EReal) := funext ha'
  obtain rfl : x = fun j k => (x' j k : EReal) := funext fun j => funext (hx' j)
  obtain rfl : w = fun k => (w' k : EReal) := funext hw'
  simp only [← EReal.coe_mul, ← coe_sum]
  exact congrArg _ (assoc_real a' x' w')

end Cert.TripleProduct

end
-- ==== Proof.Spec.lean ====
/-
  What the two programs compute, as whole-array functions over the extended reals.

  For adj of shape [10000, 10000], x of shape [10000, 128] and w of shape [128, 128]:
  * leftProduct  is (adj · x) · w : entry (r, g) = sum over k of (sum over j of adj (r, j) * x (j, k)) * w (k, g);
  * rightProduct is adj · (x · w) : entry (r, g) = sum over j of adj (r, j) * (sum over k of x (j, k) * w (k, g)).
  They are equal when every entry of the three arrays is a real number (associativity of the matrix product, which
  on the extended reals needs finiteness).
-/
import proofs.«116776_g11235634446663_week1_w3_1444_6_alg».proof.Proof.LibTripleProduct
import Idealize.ShloMosaic.Lib.ValueIdx

noncomputable section

namespace Cert.Spec

open Idealize.ShloMosaic Idealize.ShloMosaic.ValueIdx

variable (adj : (⟨2, ![10000, 10000]⟩ : Shape).Idx → EReal) (x : (⟨2, ![10000, 128]⟩ : Shape).Idx → EReal)
  (w : (⟨2, ![128, 128]⟩ : Shape).Idx → EReal)

/-- Entry (r, g) of (adj · x) · w. -/
def leftEntry (r : Fin 10000) (g : Fin 128) : EReal :=
  ∑ k : Fin 128, (∑ j : Fin 10000, adj (ix2 r j) * x (ix2 j k)) * w (ix2 k g)

/-- Entry (r, g) of adj · (x · w). -/
def rightEntry (r : Fin 10000) (g : Fin 128) : EReal :=
  ∑ j : Fin 10000, adj (ix2 r j) * ∑ k : Fin 128, x (ix2 j k) * w (ix2 k g)

/-- (adj · x) · w as an array of shape [10000, 128]. -/
def leftProduct : (⟨2, ![10000, 128]⟩ : Shape).Idx → EReal := fun i => leftEntry adj x w (i 0) (i 1)

/-- adj · (x · w) as an array of shape [10000, 128]. -/
def rightProduct : (⟨2, ![10000, 128]⟩ : Shape).Idx → EReal := fun i => rightEntry adj x w (i 0) (i 1)

/-- For arrays of real numbers the two groupings agree. -/
theorem left_eq_right (hadj : ∀ i, ∃ r : ℝ, adj i = r) (hx : ∀ i, ∃ r : ℝ, x i = r) (hw : ∀ i, ∃ r : ℝ, w i = r) :
    leftProduct adj x w = rightProduct adj x w := by
  funext i
  exact Cert.TripleProduct.assoc_of_real (fun j => adj (ix2 (i 0) j)) (fun j k => x (ix2 j k)) (fun k => w (ix2 k (i 1)))
    (fun j => hadj _) (fun j k => hx _) (fun k => hw _)

end Cert.Spec

end
-- ==== Proof.ResultArray.lean ====
/-
  The result array after the run is (adj · x) · w.

  Point t writes back the first rows of the result's staging buffer (640 of them, 400 at the last point) onto
  rows 640 t ‥ of the result array. Those rows of the buffer hold the payload of adj's block t, x and w; entry
  (p, g) of it is entry (640 t + p, g) of (adj · x) · w, because row p of adj's block is row 640 t + p of adj and
  x's and w's blocks are x and w themselves. The sixteen blocks cover the 10000 rows (row r lies in block r / 640),
  so the array ends holding the whole product.
-/
import proofs.«116776_g11235634446663_week1_w3_1444_6_alg».proof.Proof.IdealPoint
import proofs.«116776_g11235634446663_week1_w3_1444_6_alg».proof.Proof.Spec

set_option maxRecDepth 16384

noncomputable section

namespace Cert.KernelIdeal.Result

open Cert.KernelIdeal Cert.KernelIdeal.Gen Cert.KernelIdeal.Block Cert.KernelIdeal.Point
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## Where the blocks sit -/

/-- adj's and the result's blocks at point t start at row 640 t and column 0; x's and w's blocks start at the
    origin; the result's block keeps all 128 columns, and its rows end at row 640 (t + 1) or at the array's end. -/
theorem block_places : ∀ t : Fin cfg0.N,
    win0_0.index t 0 = t.val ∧ win0_0.index t 1 = 0 ∧ win0_3.index t 0 = t.val ∧ win0_3.index t 1 = 0
      ∧ (∀ a, win0_1.index t a = 0) ∧ (∀ a, win0_2.index t a = 0)
      ∧ win0_3.xsize (grid0.coords t) 1 = 128
      ∧ ((t.val + 1) * 640 ≤ 10000 → win0_3.xsize (grid0.coords t) 0 = 640)
      ∧ (¬(t.val + 1) * 640 ≤ 10000 → t.val * 640 + win0_3.xsize (grid0.coords t) 0 = 10000) :=
  (by decide +kernel : ∀ t : Fin grid0.N,
    win0_0.index t 0 = t.val ∧ win0_0.index t 1 = 0 ∧ win0_3.index t 0 = t.val ∧ win0_3.index t 1 = 0
      ∧ (∀ a, win0_1.index t a = 0) ∧ (∀ a, win0_2.index t a = 0)
      ∧ win0_3.xsize (grid0.coords t) 1 = 128
      ∧ ((t.val + 1) * 640 ≤ 10000 → win0_3.xsize (grid0.coords t) 0 = 640)
      ∧ (¬(t.val + 1) * 640 ≤ 10000 → t.val * 640 + win0_3.xsize (grid0.coords t) 0 = 10000))

/-! ## The three input blocks, read at an entry -/

/-- x's block is x. -/
theorem x_block (c : Dev nD) (t : Fin cfg0.N) (i : S10000x128.Idx) : iblk m c 1 t i = V m c main_arg0 i := by
  show V m c main_arg0 (((cfg0.win 1).blk t).view.emb i) = V m c main_arg0 i
  refine congrArg _ (funext fun a => Fin.ext ?_)
  show win0_1.index t a * S10000x128.size a + 1 * (i a).val = (i a).val
  rw [(block_places t).2.2.2.2.1 a]; omega

/-- w's block is w. -/
theorem w_block (c : Dev nD) (t : Fin cfg0.N) (i : S128x128.Idx) : iblk m c 2 t i = V m c main_arg2 i := by
  show V m c main_arg2 (((cfg0.win 2).blk t).view.emb i) = V m c main_arg2 i
  refine congrArg _ (funext fun a => Fin.ext ?_)
  show win0_2.index t a * S128x128.size a + 1 * (i a).val = (i a).val
  rw [(block_places t).2.2.2.2.2.1 a]; omega

/-- Row p of adj's staging buffer (as the proof data name it), for a row p the fetch fills, is row 640 t + p of adj. -/
theorem adj_block (c : Dev nD) (t : Fin cfg0.N) (p : Fin 640) (j : Fin 10000) (r : Fin 10000)
    (hp : p.val < win0_0.xsize (grid0.coords t) 0) (hr : r.val = t.val * 640 + p.val) :
    adjTile m c t (ix2 p j) = V m c main_arg1 (ix2 r j) := by
  have hm : win0_0.moved (grid0.coords t) (ix2 p j) = true := (win0_0.moved_iff _ _).mpr fun a => by
    match a with
    | ⟨0, _⟩ => exact hp
    | ⟨1, _⟩ => show j.val < win0_0.xsize (grid0.coords t) 1; rw [cols_whole t]; exact j.isLt
  unfold adjTile Pipeline.Window.fill
  rw [dif_pos hm]
  show V m c main_arg1 (((cfg0.win 0).blk t).view.emb _) = V m c main_arg1 (ix2 r j)
  refine congrArg _ (funext fun a => Fin.ext ?_)
  match a with
  | ⟨0, _⟩ =>
    show win0_0.index t 0 * 640 + 1 * p.val = r.val
    rw [(block_places t).1]; omega
  | ⟨1, _⟩ =>
    show win0_0.index t 1 * 10000 + 1 * j.val = j.val
    rw [(block_places t).2.1]; omega

/-! ## What a point writes back is its block of the product -/

/-- The rows point t writes back are rows 640 t ‥ of (adj · x) · w, read through the point's block. -/
theorem flushed_eq (c : Dev nD) (t : Fin cfg0.N) :
    (dats m 0 c).flushed 3 t
      = ((cfg0.win 3).blk t).view.read (Elt Ideal) (Cert.Spec.leftProduct (V m c main_arg1) (V m c main_arg0) (V m c main_arg2)) := by
  funext y
  show @Eq EReal ((dats m 0 c).after 3 t (win0_3.xinj (grid0.coords t) y))
    (Cert.Spec.leftProduct (V m c main_arg1) (V m c main_arg0) (V m c main_arg2) (((cfg0.win 3).blk t).view.emb y))
  rw [after_out]
  obtain ⟨p, g, hpg⟩ : ∃ (p : Fin 640) (g : Fin 128), win0_3.xinj (grid0.coords t) y = ix2 p g := ⟨_, _, eq_ix2 _⟩
  have hp : p.val = (y 0).val := (congrArg Fin.val (congrFun hpg 0)).symm
  have hg : g.val = (y 1).val := (congrArg Fin.val (congrFun hpg 1)).symm
  -- the array index the block's entry y sits at: row 640 t + y 0, column y 1
  have hr0 : ((((cfg0.win 3).blk t).view.emb y) 0).val = t.val * 640 + p.val := by
    show win0_3.index t 0 * 640 + 1 * (y 0).val = _
    rw [(block_places t).2.2.1, hp]; omega
  have hr1 : ((((cfg0.win 3).blk t).view.emb y) 1) = g := Fin.ext (by
    show win0_3.index t 1 * 128 + 1 * (y 1).val = _
    rw [(block_places t).2.2.2.1, hg]; omega)
  rw [hpg, Entry.pay_entry]
  unfold Cert.Spec.leftProduct Cert.Spec.leftEntry
  rw [hr1]
  refine Finset.sum_congr rfl fun k _ => ?_
  rw [w_block m c t (ix2 k g)]
  refine congrArg (· * V m c main_arg2 (ix2 k g)) (Finset.sum_congr rfl fun j _ => ?_)
  rw [x_block m c t (ix2 j k),
    adj_block m c t p j ((((cfg0.win 3).blk t).view.emb y) 0)
      (by rw [rows_alike t, hp]; exact (y 0).isLt) hr0]

/-! ## The blocks cover the array -/

/-- Row r of the result array lies in block r / 640. -/
theorem covered (i : S10000x128.Idx) : ∃ t : Fin cfg0.N, (cfg0.win 3).flush t = true ∧ i ∈ ((cfg0.win 3).blk t).view.set := by
  have h0 : (i 0).val < 10000 := (i 0).isLt
  have h1 : (i 1).val < 128 := (i 1).isLt
  obtain ⟨t, ht⟩ : ∃ t : Fin cfg0.N, t.val = (i 0).val / 640 :=
    ⟨⟨(i 0).val / 640, by have := N_0; show _ < grid0.N; omega⟩, rfl⟩
  refine ⟨t, flush0_3 t, ?_⟩
  show i ∈ ((View.whole main_v0).slice (win0_3.rect t)).set
  rw [View.set_slice_whole, Rect.mem_set_unit]
  have hb := block_places t
  intro a
  match a with
  | ⟨0, _⟩ =>
    show win0_3.index t 0 * 640 ≤ (i 0).val ∧ (i 0).val < win0_3.index t 0 * 640 + win0_3.xsize (grid0.coords t) 0
    rw [hb.2.2.1]
    by_cases hc : (t.val + 1) * 640 ≤ 10000
    · rw [hb.2.2.2.2.2.2.2.1 hc]; omega
    · have h := hb.2.2.2.2.2.2.2.2 hc; omega
  | ⟨1, _⟩ =>
    show win0_3.index t 1 * 128 ≤ (i 1).val ∧ (i 1).val < win0_3.index t 1 * 128 + win0_3.xsize (grid0.coords t) 1
    rw [hb.2.2.2.1, hb.2.2.2.2.2.2.1]; omega

/-- After the run the result array holds (adj · x) · w. -/
theorem result_array (c : Dev nD) :
    (dats m 0 c).arrAt 3 cfg0.N = Cert.Spec.leftProduct (V m c main_arg1) (V m c main_arg0) (V m c main_arg2) :=
  (dats m 0 c).arrAt_eq_of_cover 3 _ (fun t _ => flushed_eq m c t) covered

/-! ## The run, with the result named -/

/-- Every execution of the idealized kernel ends with the result array at (adj · x) · w of the launch contents and the
    three argument arrays unchanged. -/
theorem run_value : θ_run defs (onTc (τ := τ) (main (F := Ideal))) ⟨m, fun _ => 0, ρ⟩ (fun r => ∀ c : Dev nD,
      r.2.mem ((c.tc : Thread nD τ).loc main_v0)
        = Cert.Spec.leftProduct (m ((c.tc : Thread nD τ).loc main_arg1)) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 3).trans (result_array m c),
     ((h c).1 1).trans (((dats m 0 c).arrAt_in 1 rfl _).trans ((A_eq m c 1).trans (V_main_arg0 m c))),
     ((h c).1 0).trans (((dats m 0 c).arrAt_in 0 rfl _).trans ((A_eq m c 0).trans (V_main_arg1 m c))),
     ((h c).1 2).trans (((dats m 0 c).arrAt_in 2 rfl _).trans ((A_eq m c 2).trans (V_main_arg2 m c)))⟩)
    (run_main m ρ)

end Cert.KernelIdeal.Result

end
-- ==== Proof.ReferenceProduct.lean ====
/-
  The reference computes adj · (x · w).

  The reference's run ends with its result at dot_general (adj, dot_general (x, w)). Read at an entry (r, g), the outer
  contraction is the sum over j of adj (r, j) times the inner product's entry (j, g), and that entry is the sum over k
  of x (j, k) * w (k, g): the array rightProduct of the specification.
-/
import proofs.«116776_g11235634446663_week1_w3_1444_6_alg».proof.Proof.Gen.ReferenceIdeal.Read
import proofs.«116776_g11235634446663_week1_w3_1444_6_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's result as a function of its three arguments is adj · (x · w). -/
theorem reference_is_right (x0 : (⟨S10000x128, .f32⟩ : BufTy).Contents (Elt Ideal))
    (x1 : (⟨S10000x10000, .f32⟩ : BufTy).Contents (Elt Ideal)) (x2 : (⟨S128x128, .f32⟩ : BufTy).Contents (Elt Ideal)) :
    val_main_v1 (F := Ideal) x0 x1 x2 = Cert.Spec.rightProduct x1 x0 x2 := by
  funext i
  rw [val_main_v1_apply]
  unfold Cert.Spec.rightProduct Cert.Spec.rightEntry
  refine Finset.sum_congr rfl fun j _ => ?_
  rw [val_main_v0_apply]
  have e1 : lidx_main_v1 i j = ix2 (i 0) j :=
    funext fun a => Fin.ext (by match a with | ⟨0, _⟩ => rfl | ⟨1, _⟩ => rfl)
  have e2 : ∀ k : Fin 128, lidx_main_v0 (ridx_main_v1 i j) k = ix2 j k := fun k =>
    funext fun a => Fin.ext (by match a with | ⟨0, _⟩ => rfl | ⟨1, _⟩ => rfl)
  have e3 : ∀ k : Fin 128, ridx_main_v0 (ridx_main_v1 i j) k = ix2 k (i 1) := fun k =>
    funext fun a => Fin.ext (by match a with | ⟨0, _⟩ => rfl | ⟨1, _⟩ => rfl)
  rw [e1]
  simp only [e2, e3]
  rfl

end Cert.ReferenceIdeal.RefValue

end
-- ==== Proof.LibFiniteEntry.lean ====
/-
  An entry whose absolute value compares below +inf is a real number.

  A "finite inputs" precondition is printed as jnp.all(|x| < inf): entrywise, the comparison of max v (-v) with the
  f32 pattern 0x7F800000. Over the extended reals that pattern is +inf, and max v (-v) < +inf excludes both
  infinities, so v is (the coercion of) a real number. The statements are general in the array's shape:
  * ofBool_eq_one       — a bit made from a Boolean is 1 exactly when the Boolean is true;
  * real_of_abs_lt_top  — max v (-v) < +inf makes v real;
  * inf_pattern         — the f32 pattern 0x7F800000 denotes +inf;
  * entry_real          — if the comparison |x| < b gives the bit 1 at index i and b is +inf there, x i is real.
-/
import Idealize.ShloMosaic.PureOps.Ideal

noncomputable section

namespace Cert.FiniteEntry

open Idealize.ShloMosaic

/-- A bit made from a Boolean is 1 exactly when the Boolean is true. -/
theorem ofBool_eq_one {b : Bool} : BitVec.ofBool b = 1#1 ↔ b = true := by cases b <;> decide

/-- An extended real whose absolute value is below +inf is a real number. -/
theorem real_of_abs_lt_top (v : EReal) (h : max v (-v) < ⊤) : ∃ r : ℝ, v = r := by
  induction v using EReal.rec with
  | bot => simp at h
  | coe r => exact ⟨r, rfl⟩
  | top => simp at h

/-- The f32 pattern 0x7F800000 denotes +inf. -/
theorem inf_pattern : Ideal.ofBits .f32 0x7F800000#32 = (⊤ : EReal) := by
  simp [Ideal.ofBits, Ideal.ieee]

/-- One entry: the comparison |x i| < b i with b i = +inf holding says x i is a real number. -/
theorem entry_real {s : Shape} (x b : FVec Ideal s .f32) (hb : ∀ i, b i = (⊤ : EReal)) (i : s.Idx)
    (h : cmpf .olt (Host.absf x) b i = 1#1) : ∃ r : ℝ, x i = r := by
  refine real_of_abs_lt_top (x i) ?_
  have h' : Ideal.cmp .olt (max (x i) (-(x i))) (b i) = 1#1 := h
  rw [hb i] at h'
  have h'' : max (x i) (-(x i)) < ⊤ := by simpa [Ideal.cmp, ofBool_eq_one] using h'
  exact h''

end Cert.FiniteEntry

end
-- ==== Proof.FiniteEntries.lean ====
/-
  From the precondition to real entries.

  The precondition is jnp.all(|x| < inf) & jnp.all(|adj| < inf) & jnp.all(|w| < inf), one bit. If it is 1, the
  conjunction splits into three all-reductions, each of which gives the entrywise comparison at every index, and a
  comparison |v| < +inf makes v a real number. Hence every entry of each of the three arrays is (the coercion of) a
  real number — the form in which the algebra of the product uses finiteness.
-/
import proofs.«116776_g11235634446663_week1_w3_1444_6_alg».proof.Pre_finite_inputs
import proofs.«116776_g11235634446663_week1_w3_1444_6_alg».proof.Proof.LibFiniteEntry
import Idealize.ShloMosaic.Lib.ReduceAll
import Idealize.ShloMosaic.Lib.ValueIdx
import Idealize.ShloMosaic.Lib.Affine

noncomputable section

namespace Cert.FiniteEntries

open Idealize.ShloMosaic Cert.Pre_finite_inputs

variable [Cert.Pre_finite_inputs.Facts]

/-- A rank-0 array has one index. -/
instance scalarIdx_subsingleton : Subsingleton S_.Idx := ⟨fun a b => funext fun d => d.elim0⟩

/-- The bound of each comparison is +inf at every index: a scalar constant broadcast over the array. -/
theorem bound_eq_top {s : Shape} (bc : S_.BroadcastsInDim s (![] : Fin 0 → Fin s.rank)) (i : s.Idx) :
    broadcastInDim s ![] bc (constant (F := Ideal) S_ .f32 0x7F800000#32) i = (⊤ : EReal) :=
  Cert.FiniteEntry.inf_pattern

/-- The precondition's bit being 1 makes every entry of the three arrays a real number. -/
theorem entries_real (x0 : FVec Ideal S10000x128 .f32) (x1 : FVec Ideal S10000x10000 .f32) (x2 : FVec Ideal S128x128 .f32)
    (h : fn (F := Ideal) x0 x1 x2 = fun _ => 1#1) :
    (∀ i, ∃ r : ℝ, x0 i = r) ∧ (∀ i, ∃ r : ℝ, x1 i = r) ∧ (∀ i, ∃ r : ℝ, x2 i = r) := by
  have h0 := congrFun h ValueIdx.ix0
  dsimp only [fn] at h0
  obtain ⟨h01, h2⟩ := IntOp.andi_eq_one.mp h0
  obtain ⟨h0', h1⟩ := IntOp.andi_eq_one.mp h01
  exact ⟨fun i => Cert.FiniteEntry.entry_real x0 _ (bound_eq_top _) i (Host.reduce_andi_all _ _ _ _ _ h0' i),
    fun i => Cert.FiniteEntry.entry_real x1 _ (bound_eq_top _) i (Host.reduce_andi_all _ _ _ _ _ h1 i),
    fun i => Cert.FiniteEntry.entry_real x2 _ (bound_eq_top _) i (Host.reduce_andi_all _ _ _ _ _ h2 i)⟩

end Cert.FiniteEntries

end
-- ==== Proof.lean ====
/-
  out = adj @ (x @ w) against a blocked kernel that computes (adj_block @ x) @ w.

  The kernel tiles adj [10000, 10000] into sixteen row blocks of 640 rows (the last overhanging the array by 240
  rows) and computes each block of the result as (adj_block · x) · w, x [10000, 128] and w [128, 128] staged whole;
  the reference computes h = x · w and then adj · h. Over the extended reals, with every float operation exact:

  * frames. The word-level kernel only reads its three arguments (the result's window is not followed there);
    the idealized kernel's run is followed exactly, the unnamed rows of the overhanging last block never reaching
    a row that is written back; the reference's frame is its run with the result dropped.
  * preserves. The idealization rewrote nothing, so there is nothing to state.
  * algebraic. The kernel's result array ends at (adj · x) · w, the reference's at adj · (x · w). The precondition
    makes every entry of adj, x and w a real number, and for real entries the two groupings are equal:
    associativity of the matrix product, i.e. distributing both ways and exchanging two finite sums.
-/
import proofs.«116776_g11235634446663_week1_w3_1444_6_alg».proof.Defs
import proofs.«116776_g11235634446663_week1_w3_1444_6_alg».proof.Proof.Gen.Kernel
import proofs.«116776_g11235634446663_week1_w3_1444_6_alg».proof.Proof.Gen.KernelIdeal
import proofs.«116776_g11235634446663_week1_w3_1444_6_alg».proof.Proof.Gen.ReferenceIdeal
import proofs.«116776_g11235634446663_week1_w3_1444_6_alg».proof.Proof.Gen.ReferenceIdeal.Run
import proofs.«116776_g11235634446663_week1_w3_1444_6_alg».proof.Proof.Gen.ReferenceIdeal.Read
import proofs.«116776_g11235634446663_week1_w3_1444_6_alg».proof.Proof.Gen.Pre_finite_inputs
import proofs.«116776_g11235634446663_week1_w3_1444_6_alg».proof.Proof.BitsFrame
import proofs.«116776_g11235634446663_week1_w3_1444_6_alg».proof.Proof.ResultArray
import proofs.«116776_g11235634446663_week1_w3_1444_6_alg».proof.Proof.ReferenceProduct
import proofs.«116776_g11235634446663_week1_w3_1444_6_alg».proof.Proof.FiniteEntries
import Idealize.ShloMosaic.Adequacy
import Idealize.ShloMosaic.Init

noncomputable section

namespace Cert.Proof

open Idealize.ShloMosaic Idealize.SL.Sem

/-- The word-level kernel runs to the end and leaves its arguments as they were. -/
theorem frame_kernel : Cert.frame_Kernel := fun m ρ _ => Cert.Kernel.ReadOnly.frame (F := Bits) m ρ

/-- So does the idealized kernel. -/
theorem frame_kernelIdeal : Cert.frame_KernelIdeal := fun m ρ _ => Cert.KernelIdeal.Point.frame m ρ

/-- The reference's frame is its run, the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories agreeing on adj, x and w, all entries real: the kernel ends at (adj · x) · w, the reference at
    adj · (x · w), and these are one array. -/
theorem algebraic : Cert.algebraic_KernelIdeal_ReferenceIdeal := by
  intro m ρ m' ρ' hpre hagree
  refine ⟨_, Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.reference_is_right,
    (hagree c).1, (hagree c).2.1, (hagree c).2.2]
  obtain ⟨hx, hadj, hw⟩ := Cert.FiniteEntries.entries_real _ _ _ (hpre c)
  exact (Cert.Spec.left_eq_right _ _ _ hadj hx hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
